-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S1024x1024 .f32) (main_arg16 : FVec F S1024 .f32) (main_arg17 : FVec F S1024x1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 31
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S1024x4096, .f32⟩
  | .hbm, ⟨20, _⟩ => ⟨S1024x4096, .bf16⟩
  | .hbm, ⟨21, _⟩ => ⟨S1024x4096, .f32⟩
  | .hbm, ⟨22, _⟩ => ⟨S1024x4096, .bf16⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S4096, .f32⟩
  | .hbm, ⟨28, _⟩ => ⟨S1x4096, .f32⟩
  | .hbm, ⟨29, _⟩ => ⟨S4096x1024, .f32⟩
  | .hbm, ⟨30, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10_0 : Ref sig .tc := ⟨.hbm, 29, rfl⟩
abbrev main_v10_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S1024x1024_S1024x1024_S1024x4096_d1 : Shape.Concatenates [S1024x1024, S1024x1024, S1024x1024, S1024x1024] S1024x4096 1
  bitsLt_bf16_f32 : FTy.bits .bf16 < FTy.bits .f32
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1024x4096 : Shape := ⟨2, ![1024, 4096]⟩
abbrev S4096 : Shape := ⟨1, ![4096]⟩
abbrev S4096x4096 : Shape := ⟨2, ![4096, 4096]⟩
abbrev S1x4096 : Shape := ⟨2, ![1, 4096]⟩
abbrev S_ : Shape := ⟨0, ![]⟩

abbrev nBuf : Space → Nat
  | .hbm => 65
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S1024x4096, .f32⟩
  | .hbm, ⟨20, _⟩ => ⟨S1024x4096, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S1x4096, .f32⟩
  | .hbm, ⟨30, _⟩ => ⟨S4096x4096, .f32⟩
  | .hbm, ⟨31, _⟩ => ⟨S4096x4096, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev main_v20 : Ref sig .tc := ⟨.hbm, 40, rfl⟩
abbrev main_cst_0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_1 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩

abbrev nD : Nat := 1
abbrev τ : Topo := Topo.v7x

variable {F : FTy → Type} [FloatOps F]

class Facts₀ : Prop where
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.BitsRun.lean ====
/-
  The run of `Kernel`'s @main, at any float instance: ten host lines (three concatenations, two conversions, four
  sums, one reshape) build the two wide weight matrices and the bias row, then ONE pipelined region of sixteen grid
  points runs the cell body on 256 batch rows at a time. Per point the body reads six blocks — 256 rows of x, of h0
  and of c0, and the two weight matrices and the bias row whole (fetched once, at the first point) — and stores two:
  256 rows of the new hidden state and of the new cell state, each covered whole by its one store. So what the point
  leaves in each output's staging buffer is a function of the six blocks read, and the run ends with both result
  arrays at what the pipeline wrote back block by block, every other array as the region found it, and the region
  found every argument array as launched (the host lines write ten buffers of their own and nothing else).
-/
import proofs.«106889_j38414187495767_1_alg».proof.Proof.Gen.Kernel.Launch
import proofs.«106889_j38414187495767_1_alg».proof.Proof.Gen.Kernel.Skeleton
import proofs.«106889_j38414187495767_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.CellRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the ten host lines. -/
abbrev atEntry (c : Dev nD) (b : Ref sig .tc) : Buf (Elt F) ((c : Thread nD τ).loc b) :=
  StableHlo.after hostOps0 (fun b => m (c, b)) b

/-- No host line allocates. -/
theorem hostOps0_fresh : (hostOps0 : List (HloOp τ sig (Elt F))).Forall fun op => op.fresh = ∅ := by
  simp only [List.Forall]; repeat' constructor

/-- @main is the host lines, then the region. -/
theorem main_prefix (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-- The host lines write `main_v0` … `main_v9` only: any other buffer is, at the region's entry, as launched. -/
theorem atEntry_of_unwritten (c : Dev nD) (b : Ref sig .tc)
    (hb : ∀ y ∈ ([main_v0, main_v1, main_v2, main_v3, main_v4, main_v5, main_v6, main_v7, main_v8, main_v9] : List (Ref sig .tc)), b ≠ y) :
    atEntry m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (hb _ (by decide))))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- An input window's current staging buffer holds its block at every point, whether the point fetches it or not (a
    point that does not fetch has not moved the window's index): for any proof data over the entry arrays whose body
    leaves the input's buffer in place. One statement per input window, the window a literal. -/
theorem held0 {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held1 {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held2 {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held3 {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held4 {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem held5 {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses and what it leaves in each output's buffer -/

/-- The whole of a 256-row block, of a weight matrix, of the bias row. -/
abbrev rRows : Rect S256x1024 := Rect.unit (s := S256x1024) ![0, 0] S256x1024.size inb_S256x1024_S256x1024_0_0
abbrev rWide : Rect S1024x4096 := Rect.unit (s := S1024x4096) ![0, 0] S1024x4096.size inb_S1024x4096_S1024x4096_0_0
abbrev rBias : Rect S1x4096 := Rect.unit (s := S1x4096) ![0, 0] S1x4096.size inb_S1x4096_S1x4096_0_0

/-- The hidden-state block after the body: its one store, covering the buffer, over the six blocks read. -/
def hiddenLeft (x h c0 : Vec F S256x1024 .f32) (wi wh : Vec F S1024x4096 .bf16) (b : Vec F S1x4096 .f32) : Vec F S256x1024 .f32 :=
  View.canon [⟨rRows, k0_pay3 (View.ld x rRows) (View.ld h rRows) (View.ld wi rWide) (View.ld wh rWide) (View.ld b rBias) (View.ld c0 rRows)⟩]

/-- The cell-state block after the body. -/
def cellLeft (x h c0 : Vec F S256x1024 .f32) (wi wh : Vec F S1024x4096 .bf16) (b : Vec F S1x4096 .f32) : Vec F S256x1024 .f32 :=
  View.canon [⟨rRows, k0_pay2 (View.ld x rRows) (View.ld h rRows) (View.ld wi rWide) (View.ld wh rWide) (View.ld b rBias) (View.ld c0 rRows)⟩]

/-- One whole-block store covers the block. -/
theorem covered (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y

/-! ## The body's triple -/

set_option maxHeartbeats 1000000 in
/-- The body on whole staging memrefs, the six inputs' at read contents and the two outputs' at anything, runs to the
    continuation holding the inputs' as they were and each output's at its block above. -/
theorem body_triple (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x h c0 : Vec F S256x1024 .f32) (wi wh : Vec F S1024x4096 .bf16) (b : Vec F S1x4096 .f32) (K : PUnit → sProp 𝕄) :
    iprop(owns (c : Thread nD τ) arg1 fullShare x ∗ owns (c : Thread nD τ) arg2 fullShare h ∗ owns (c : Thread nD τ) arg3 fullShare c0
        ∗ owns (c : Thread nD τ) arg4 fullShare wi ∗ owns (c : Thread nD τ) arg5 fullShare wh ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h ∗ owns (c : Thread nD τ) arg3 fullShare c0
            ∗ owns (c : Thread nD τ) arg4 fullShare wi ∗ owns (c : Thread nD τ) arg5 fullShare wh ∗ owns (c : Thread nD τ) arg6 fullShare b
            ∗ owns (c : Thread nD τ) arg7 fullShare (hiddenLeft x h c0 wi wh b) ∗ owns (c : Thread nD τ) arg8 fullShare (cellLeft x h c0 wi wh b)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (covered _)
  iexists _; isplitr
  swap; · iexact H8
  ipureintro
  exact View.read_writes_eq_canon _ _ _ (covered _)

/-! ## The pipeline's proof data -/

/-- The proof data of the one pipeline on core `c`: the arrays as the region finds them; after the body at point `t`
    each input's buffer at its block and each output's at its block above; the invariant the scoped rest and the
    generator register, untouched; nothing owed; full shares. -/
def pdat (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => hiddenLeft (blockAt m c 0 t) (blockAt m c 1 t) (blockAt m c 2 t) (blockAt m c 3 t) (blockAt m c 4 t) (blockAt m c 5 t)
    | ⟨7, _⟩ => cellLeft (blockAt m c 0 t) (blockAt m c 1 t) (blockAt m c 2 t) (blockAt m c 3 t) (blockAt m c 4 t) (blockAt m c 5 t)
  Φ _ := Pipeline.ΦA spec0 c
  q _ := fullShare
  owed _ := 0

theorem pdat_A (c : Dev nD) (w : Fin cfg0.W) : (pdat m 0 c).A w = atEntry m c (Pipeline.arrRef spec0 w) := by
  dsimp only [pdat]

theorem left0 (c : Dev nD) (t : Fin cfg0.N) : (pdat m 0 c).after 0 t = blockAt m c 0 t := by dsimp only [pdat]
theorem left1 (c : Dev nD) (t : Fin cfg0.N) : (pdat m 0 c).after 1 t = blockAt m c 1 t := by dsimp only [pdat]
theorem left2 (c : Dev nD) (t : Fin cfg0.N) : (pdat m 0 c).after 2 t = blockAt m c 2 t := by dsimp only [pdat]
theorem left3 (c : Dev nD) (t : Fin cfg0.N) : (pdat m 0 c).after 3 t = blockAt m c 3 t := by dsimp only [pdat]
theorem left4 (c : Dev nD) (t : Fin cfg0.N) : (pdat m 0 c).after 4 t = blockAt m c 4 t := by dsimp only [pdat]
theorem left5 (c : Dev nD) (t : Fin cfg0.N) : (pdat m 0 c).after 5 t = blockAt m c 5 t := by dsimp only [pdat]
theorem left6 (c : Dev nD) (t : Fin cfg0.N) : (pdat m 0 c).after 6 t
    = hiddenLeft (blockAt m c 0 t) (blockAt m c 1 t) (blockAt m c 2 t) (blockAt m c 3 t) (blockAt m c 4 t) (blockAt m c 5 t) := by dsimp only [pdat]
theorem left7 (c : Dev nD) (t : Fin cfg0.N) : (pdat m 0 c).after 7 t
    = cellLeft (blockAt m c 0 t) (blockAt m c 1 t) (blockAt m c 2 t) (blockAt m c 3 t) (blockAt m c 4 t) (blockAt m c 5 t) := by dsimp only [pdat]

theorem found0 (c : Dev nD) (t : Fin cfg0.N) (d) : (pdat m 0 c).before 0 t d = blockAt m c 0 t := held0 m (pdat m 0 c) (pdat_A m c 0) (left0 m c) t d
theorem found1 (c : Dev nD) (t : Fin cfg0.N) (d) : (pdat m 0 c).before 1 t d = blockAt m c 1 t := held1 m (pdat m 0 c) (pdat_A m c 1) (left1 m c) t d
theorem found2 (c : Dev nD) (t : Fin cfg0.N) (d) : (pdat m 0 c).before 2 t d = blockAt m c 2 t := held2 m (pdat m 0 c) (pdat_A m c 2) (left2 m c) t d
theorem found3 (c : Dev nD) (t : Fin cfg0.N) (d) : (pdat m 0 c).before 3 t d = blockAt m c 3 t := held3 m (pdat m 0 c) (pdat_A m c 3) (left3 m c) t d
theorem found4 (c : Dev nD) (t : Fin cfg0.N) (d) : (pdat m 0 c).before 4 t d = blockAt m c 4 t := held4 m (pdat m 0 c) (pdat_A m c 4) (left4 m c) t d
theorem found5 (c : Dev nD) (t : Fin cfg0.N) (d) : (pdat m 0 c).before 5 t d = blockAt m c 5 t := held5 m (pdat m 0 c) (pdat_A m c 5) (left5 m c) t d

/-! ## The body obligation, at a generic point -/

/-- What the body is called with at point `t`, the windows one by one, -/
def pointPre (c : Dev nD) (t : Fin cfg0.N) : sProp 𝕄 :=
  iprop((pdat m 0 c).Φ t.castSucc ∗ (pdat m 0 c).owesAt () t.castSucc
    ∗ (∃ d, owns (c : Thread nD τ) (st0_0 t) fullShare ((pdat m 0 c).before 0 t d))
    ∗ (∃ d, owns (c : Thread nD τ) (st0_1 t) fullShare ((pdat m 0 c).before 1 t d))
    ∗ (∃ d, owns (c : Thread nD τ) (st0_2 t) fullShare ((pdat m 0 c).before 2 t d))
    ∗ (∃ d, owns (c : Thread nD τ) (st0_3 t) fullShare ((pdat m 0 c).before 3 t d))
    ∗ (∃ d, owns (c : Thread nD τ) (st0_4 t) fullShare ((pdat m 0 c).before 4 t d))
    ∗ (∃ d, owns (c : Thread nD τ) (st0_5 t) fullShare ((pdat m 0 c).before 5 t d))
    ∗ (∃ d, owns (c : Thread nD τ) (st0_6 t) fullShare ((pdat m 0 c).before 6 t d))
    ∗ (∃ d, owns (c : Thread nD τ) (st0_7 t) fullShare ((pdat m 0 c).before 7 t d)))

/-- and what it returns. -/
def pointPost (c : Dev nD) (t : Fin cfg0.N) : sProp 𝕄 :=
  iprop((pdat m 0 c).Φ t.succ ∗ (pdat m 0 c).owesAt () t.succ
    ∗ owns (c : Thread nD τ) (st0_0 t) fullShare ((pdat m 0 c).after 0 t)
    ∗ owns (c : Thread nD τ) (st0_1 t) fullShare ((pdat m 0 c).after 1 t)
    ∗ owns (c : Thread nD τ) (st0_2 t) fullShare ((pdat m 0 c).after 2 t)
    ∗ owns (c : Thread nD τ) (st0_3 t) fullShare ((pdat m 0 c).after 3 t)
    ∗ owns (c : Thread nD τ) (st0_4 t) fullShare ((pdat m 0 c).after 4 t)
    ∗ owns (c : Thread nD τ) (st0_5 t) fullShare ((pdat m 0 c).after 5 t)
    ∗ owns (c : Thread nD τ) (st0_6 t) fullShare ((pdat m 0 c).after 6 t)
    ∗ owns (c : Thread nD τ) (st0_7 t) fullShare ((pdat m 0 c).after 7 t))

/-- The body at any point: the inputs' memrefs hold their blocks, so the triple applies; the invariant and the core's
    debts pass through unread. -/
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [found0, found1, found2, found3, found4, found5]
  rw [show (pdat m 0 c).Φ t.succ = (pdat m 0 c).Φ t.castSucc from rfl,
    show (pdat m 0 c).owesAt () t.succ = (pdat m 0 c).owesAt () t.castSucc from rfl,
    left0, left1, left2, left3, left4, left5, left6, left7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ _ _ _ _ _ _ _ _ _ _ _ _ _ _ _ _ _ (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem every_point (c : Dev nD) : BodyObligation (pdat (F := F) m 0 c) (defs₀ (F := F)) Variants.none () Set.univ := fun t => by
  rw [bigSep_W0, bigSep_W0]
  exact point_sound m c t

/-! ## The run -/

set_option backward.isDefEq.respectTransparency.types false in
/-- From any memory with zero counters every weakly fair execution of @main terminates, and every final state has
    every array of the pipeline at what the library computes from the proof data and every other unscoped buffer as
    the region found it. -/
theorem run_to_post : θ_run defs (onTc (τ := τ) (main (F := F))) (s₀ m ρ) (Pipeline.FramePost cfgs (pdat m) 0 (atEntry m)) :=
  Pipeline.θ_run_frame cfgs (pdat m) (0 : Fin 1) launch0 defs₀ Variants.none m ρ main
    (hbody := fun c => (every_point m c).loose) (hshare := fun c => (pdat m 0 c).share_full fun _ => rfl)
    (howed := fun _ _ => rfl) (V := atEntry m) (hmain := main_prefix m Variants.none) (hA := pdat_A m) (hΦ := fun _ _ => rfl)

/-! ## The argument arrays after the run -/

/-- A staged input array ends as launched: its window never writes back, and no host line wrote it. -/
theorem kept_staged (r : PUnit × MemSt nD τ sig (Elt F)) (h : Pipeline.FramePost cfgs (pdat m) 0 (atEntry m) r) (c : Dev nD)
    (w : Fin cfg0.W) (hw : (cfg0.win w).isOut = false)
    (hb : ∀ y ∈ ([main_v0, main_v1, main_v2, main_v3, main_v4, main_v5, main_v6, main_v7, main_v8, main_v9] : List (Ref sig .tc)), Pipeline.arrRef spec0 w ≠ y) :
    r.2.mem (((cfgs 0).spec w).arr.view.loc (c.tc : Thread nD τ)) = m ((c : Thread nD τ).loc (Pipeline.arrRef spec0 w)) :=
  ((h c).1 w).trans (((pdat m 0 c).arrAt_in w hw _).trans ((pdat_A m c w).trans (atEntry_of_unwritten m c _ hb)))

/-- An argument array no window stages ends as launched. -/
theorem kept_unstaged (r : PUnit × MemSt nD τ sig (Elt F)) (h : Pipeline.FramePost cfgs (pdat m) 0 (atEntry m) r) (c : Dev nD)
    (b : Ref sig .tc) (hs : b.isScoped = false) (ha : ∀ w, (spec0 w).arr.view.ref ≠ b)
    (hb : ∀ y ∈ ([main_v0, main_v1, main_v2, main_v3, main_v4, main_v5, main_v6, main_v7, main_v8, main_v9] : List (Ref sig .tc)), b ≠ y) :
    r.2.mem ((c.tc : Thread nD τ).loc b) = m ((c : Thread nD τ).loc b) :=
  ((h c).2 b (Pipeline.mem_restRefs_of b hs ha)).trans (atEntry_of_unwritten m c b hb)

/-- All nineteen argument arrays end as launched. -/
theorem args_kept (r : PUnit × MemSt nD τ sig (Elt F)) (h : Pipeline.FramePost cfgs (pdat m) 0 (atEntry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨kept_staged m r h c 0 rfl (by decide), kept_staged m r h c 1 rfl (by decide), kept_staged m r h c 2 rfl (by decide),
    kept_unstaged m r h c main_arg3 (by decide) (by decide) (by decide),
    kept_unstaged m r h c main_arg4 (by decide) (by decide) (by decide),
    kept_unstaged m r h c main_arg5 (by decide) (by decide) (by decide),
    kept_unstaged m r h c main_arg6 (by decide) (by decide) (by decide),
    kept_unstaged m r h c main_arg7 (by decide) (by decide) (by decide),
    kept_unstaged m r h c main_arg8 (by decide) (by decide) (by decide),
    kept_unstaged m r h c main_arg9 (by decide) (by decide) (by decide),
    kept_unstaged m r h c main_arg10 (by decide) (by decide) (by decide),
    kept_unstaged m r h c main_arg11 (by decide) (by decide) (by decide),
    kept_unstaged m r h c main_arg12 (by decide) (by decide) (by decide),
    kept_unstaged m r h c main_arg13 (by decide) (by decide) (by decide),
    kept_unstaged m r h c main_arg14 (by decide) (by decide) (by decide),
    kept_unstaged m r h c main_arg15 (by decide) (by decide) (by decide),
    kept_unstaged m r h c main_arg16 (by decide) (by decide) (by decide),
    kept_unstaged m r h c main_arg17 (by decide) (by decide) (by decide),
    kept_unstaged m r h c main_arg18 (by decide) (by decide) (by decide)⟩

/-- THE FRAME: @main runs to the end, faults nowhere, and leaves its nineteen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => args_kept m r h c) (run_to_post m ρ)

end Cert.Kernel.CellRun

end
-- ==== Proof.IdealRun.lean ====
/-
  The run of `KernelIdeal`'s @main, at any float instance: ten host lines (three concatenations, two conversions, four
  sums, one reshape) build the two wide weight matrices and the bias row, then ONE pipelined region of sixteen grid
  points runs the cell body on 256 batch rows at a time. Per point the body reads six blocks — 256 rows of x, of h0
  and of c0, and the two weight matrices and the bias row whole (fetched once, at the first point) — and stores two:
  256 rows of the new hidden state and of the new cell state, each covered whole by its one store. So what the point
  leaves in each output's staging buffer is a function of the six blocks read, and the run ends with both result
  arrays at what the pipeline wrote back block by block, every other array as the region found it, and the region
  found every argument array as launched (the host lines write ten buffers of their own and nothing else).
-/
import proofs.«106889_j38414187495767_1_alg».proof.Proof.Gen.KernelIdeal.Launch
import proofs.«106889_j38414187495767_1_alg».proof.Proof.Gen.KernelIdeal.Skeleton
import proofs.«106889_j38414187495767_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.CellRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the ten host lines. -/
abbrev atEntry (c : Dev nD) (b : Ref sig .tc) : Buf (Elt F) ((c : Thread nD τ).loc b) :=
  StableHlo.after hostOps0 (fun b => m (c, b)) b

/-- No host line allocates. -/
theorem hostOps0_fresh : (hostOps0 : List (HloOp τ sig (Elt F))).Forall fun op => op.fresh = ∅ := by
  simp only [List.Forall]; repeat' constructor

/-- @main is the host lines, then the region. -/
theorem main_prefix (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-- The host lines write `main_v0` … `main_v9` only: any other buffer is, at the region's entry, as launched. -/
theorem atEntry_of_unwritten (c : Dev nD) (b : Ref sig .tc)
    (hb : ∀ y ∈ ([main_v0, main_v1, main_v2, main_v3, main_v4, main_v5, main_v6, main_v7, main_v8, main_v9] : List (Ref sig .tc)), b ≠ y) :
    atEntry m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (hb _ (by decide))))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- An input window's current staging buffer holds its block at every point, whether the point fetches it or not (a
    point that does not fetch has not moved the window's index): for any proof data over the entry arrays whose body
    leaves the input's buffer in place. One statement per input window, the window a literal. -/
theorem held0 {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held1 {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held2 {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held3 {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held4 {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem held5 {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## The body's accesses and what it leaves in each output's buffer -/

/-- The whole of a 256-row block, of a weight matrix, of the bias row. -/
abbrev rRows : Rect S256x1024 := Rect.unit (s := S256x1024) ![0, 0] S256x1024.size inb_S256x1024_S256x1024_0_0
abbrev rWide : Rect S1024x4096 := Rect.unit (s := S1024x4096) ![0, 0] S1024x4096.size inb_S1024x4096_S1024x4096_0_0
abbrev rBias : Rect S1x4096 := Rect.unit (s := S1x4096) ![0, 0] S1x4096.size inb_S1x4096_S1x4096_0_0

/-- The hidden-state block after the body: its one store, covering the buffer, over the six blocks read. -/
def hiddenLeft (x h c0 : Vec F S256x1024 .f32) (wi wh : Vec F S1024x4096 .bf16) (b : Vec F S1x4096 .f32) : Vec F S256x1024 .f32 :=
  View.canon [⟨rRows, k0_pay3 (View.ld x rRows) (View.ld h rRows) (View.ld wi rWide) (View.ld wh rWide) (View.ld b rBias) (View.ld c0 rRows)⟩]

/-- The cell-state block after the body. -/
def cellLeft (x h c0 : Vec F S256x1024 .f32) (wi wh : Vec F S1024x4096 .bf16) (b : Vec F S1x4096 .f32) : Vec F S256x1024 .f32 :=
  View.canon [⟨rRows, k0_pay2 (View.ld x rRows) (View.ld h rRows) (View.ld wi rWide) (View.ld wh rWide) (View.ld b rBias) (View.ld c0 rRows)⟩]

/-- One whole-block store covers the block. -/
theorem covered (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y

/-! ## The body's triple -/

set_option maxHeartbeats 1000000 in
/-- The body on whole staging memrefs, the six inputs' at read contents and the two outputs' at anything, runs to the
    continuation holding the inputs' as they were and each output's at its block above. -/
theorem body_triple (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x h c0 : Vec F S256x1024 .f32) (wi wh : Vec F S1024x4096 .bf16) (b : Vec F S1x4096 .f32) (K : PUnit → sProp 𝕄) :
    iprop(owns (c : Thread nD τ) arg1 fullShare x ∗ owns (c : Thread nD τ) arg2 fullShare h ∗ owns (c : Thread nD τ) arg3 fullShare c0
        ∗ owns (c : Thread nD τ) arg4 fullShare wi ∗ owns (c : Thread nD τ) arg5 fullShare wh ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h ∗ owns (c : Thread nD τ) arg3 fullShare c0
            ∗ owns (c : Thread nD τ) arg4 fullShare wi ∗ owns (c : Thread nD τ) arg5 fullShare wh ∗ owns (c : Thread nD τ) arg6 fullShare b
            ∗ owns (c : Thread nD τ) arg7 fullShare (hiddenLeft x h c0 wi wh b) ∗ owns (c : Thread nD τ) arg8 fullShare (cellLeft x h c0 wi wh b)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (covered _)
  iexists _; isplitr
  swap; · iexact H8
  ipureintro
  exact View.read_writes_eq_canon _ _ _ (covered _)

/-! ## The pipeline's proof data -/

/-- The proof data of the one pipeline on core `c`: the arrays as the region finds them; after the body at point `t`
    each input's buffer at its block and each output's at its block above; the invariant the scoped rest and the
    generator register, untouched; nothing owed; full shares. -/
def pdat (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => hiddenLeft (blockAt m c 0 t) (blockAt m c 1 t) (blockAt m c 2 t) (blockAt m c 3 t) (blockAt m c 4 t) (blockAt m c 5 t)
    | ⟨7, _⟩ => cellLeft (blockAt m c 0 t) (blockAt m c 1 t) (blockAt m c 2 t) (blockAt m c 3 t) (blockAt m c 4 t) (blockAt m c 5 t)
  Φ _ := Pipeline.ΦA spec0 c
  q _ := fullShare
  owed _ := 0

theorem pdat_A (c : Dev nD) (w : Fin cfg0.W) : (pdat m 0 c).A w = atEntry m c (Pipeline.arrRef spec0 w) := by
  dsimp only [pdat]

theorem left0 (c : Dev nD) (t : Fin cfg0.N) : (pdat m 0 c).after 0 t = blockAt m c 0 t := by dsimp only [pdat]
theorem left1 (c : Dev nD) (t : Fin cfg0.N) : (pdat m 0 c).after 1 t = blockAt m c 1 t := by dsimp only [pdat]
theorem left2 (c : Dev nD) (t : Fin cfg0.N) : (pdat m 0 c).after 2 t = blockAt m c 2 t := by dsimp only [pdat]
theorem left3 (c : Dev nD) (t : Fin cfg0.N) : (pdat m 0 c).after 3 t = blockAt m c 3 t := by dsimp only [pdat]
theorem left4 (c : Dev nD) (t : Fin cfg0.N) : (pdat m 0 c).after 4 t = blockAt m c 4 t := by dsimp only [pdat]
theorem left5 (c : Dev nD) (t : Fin cfg0.N) : (pdat m 0 c).after 5 t = blockAt m c 5 t := by dsimp only [pdat]
theorem left6 (c : Dev nD) (t : Fin cfg0.N) : (pdat m 0 c).after 6 t
    = hiddenLeft (blockAt m c 0 t) (blockAt m c 1 t) (blockAt m c 2 t) (blockAt m c 3 t) (blockAt m c 4 t) (blockAt m c 5 t) := by dsimp only [pdat]
theorem left7 (c : Dev nD) (t : Fin cfg0.N) : (pdat m 0 c).after 7 t
    = cellLeft (blockAt m c 0 t) (blockAt m c 1 t) (blockAt m c 2 t) (blockAt m c 3 t) (blockAt m c 4 t) (blockAt m c 5 t) := by dsimp only [pdat]

theorem found0 (c : Dev nD) (t : Fin cfg0.N) (d) : (pdat m 0 c).before 0 t d = blockAt m c 0 t := held0 m (pdat m 0 c) (pdat_A m c 0) (left0 m c) t d
theorem found1 (c : Dev nD) (t : Fin cfg0.N) (d) : (pdat m 0 c).before 1 t d = blockAt m c 1 t := held1 m (pdat m 0 c) (pdat_A m c 1) (left1 m c) t d
theorem found2 (c : Dev nD) (t : Fin cfg0.N) (d) : (pdat m 0 c).before 2 t d = blockAt m c 2 t := held2 m (pdat m 0 c) (pdat_A m c 2) (left2 m c) t d
theorem found3 (c : Dev nD) (t : Fin cfg0.N) (d) : (pdat m 0 c).before 3 t d = blockAt m c 3 t := held3 m (pdat m 0 c) (pdat_A m c 3) (left3 m c) t d
theorem found4 (c : Dev nD) (t : Fin cfg0.N) (d) : (pdat m 0 c).before 4 t d = blockAt m c 4 t := held4 m (pdat m 0 c) (pdat_A m c 4) (left4 m c) t d
theorem found5 (c : Dev nD) (t : Fin cfg0.N) (d) : (pdat m 0 c).before 5 t d = blockAt m c 5 t := held5 m (pdat m 0 c) (pdat_A m c 5) (left5 m c) t d

/-! ## The body obligation, at a generic point -/

/-- What the body is called with at point `t`, the windows one by one, -/
def pointPre (c : Dev nD) (t : Fin cfg0.N) : sProp 𝕄 :=
  iprop((pdat m 0 c).Φ t.castSucc ∗ (pdat m 0 c).owesAt () t.castSucc
    ∗ (∃ d, owns (c : Thread nD τ) (st0_0 t) fullShare ((pdat m 0 c).before 0 t d))
    ∗ (∃ d, owns (c : Thread nD τ) (st0_1 t) fullShare ((pdat m 0 c).before 1 t d))
    ∗ (∃ d, owns (c : Thread nD τ) (st0_2 t) fullShare ((pdat m 0 c).before 2 t d))
    ∗ (∃ d, owns (c : Thread nD τ) (st0_3 t) fullShare ((pdat m 0 c).before 3 t d))
    ∗ (∃ d, owns (c : Thread nD τ) (st0_4 t) fullShare ((pdat m 0 c).before 4 t d))
    ∗ (∃ d, owns (c : Thread nD τ) (st0_5 t) fullShare ((pdat m 0 c).before 5 t d))
    ∗ (∃ d, owns (c : Thread nD τ) (st0_6 t) fullShare ((pdat m 0 c).before 6 t d))
    ∗ (∃ d, owns (c : Thread nD τ) (st0_7 t) fullShare ((pdat m 0 c).before 7 t d)))

/-- and what it returns. -/
def pointPost (c : Dev nD) (t : Fin cfg0.N) : sProp 𝕄 :=
  iprop((pdat m 0 c).Φ t.succ ∗ (pdat m 0 c).owesAt () t.succ
    ∗ owns (c : Thread nD τ) (st0_0 t) fullShare ((pdat m 0 c).after 0 t)
    ∗ owns (c : Thread nD τ) (st0_1 t) fullShare ((pdat m 0 c).after 1 t)
    ∗ owns (c : Thread nD τ) (st0_2 t) fullShare ((pdat m 0 c).after 2 t)
    ∗ owns (c : Thread nD τ) (st0_3 t) fullShare ((pdat m 0 c).after 3 t)
    ∗ owns (c : Thread nD τ) (st0_4 t) fullShare ((pdat m 0 c).after 4 t)
    ∗ owns (c : Thread nD τ) (st0_5 t) fullShare ((pdat m 0 c).after 5 t)
    ∗ owns (c : Thread nD τ) (st0_6 t) fullShare ((pdat m 0 c).after 6 t)
    ∗ owns (c : Thread nD τ) (st0_7 t) fullShare ((pdat m 0 c).after 7 t))

/-- The body at any point: the inputs' memrefs hold their blocks, so the triple applies; the invariant and the core's
    debts pass through unread. -/
theorem point_sound (c : Dev nD) (t : Fin cfg0.N) :
    pointPre m c t ⊢ wp frame (wpE (defs₀ (F := F)) Variants.none c none) Set.univ (bodyAt0 t) (fun _ => pointPost m c t) := by
  unfold pointPre pointPost bodyAt0
  simp only [found0, found1, found2, found3, found4, found5]
  rw [show (pdat m 0 c).Φ t.succ = (pdat m 0 c).Φ t.castSucc from rfl,
    show (pdat m 0 c).owesAt () t.succ = (pdat m 0 c).owesAt () t.castSucc from rfl,
    left0, left1, left2, left3, left4, left5, left6, left7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ _ _ _ _ _ _ _ _ _ _ _ _ _ _ _ _ _ (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem every_point (c : Dev nD) : BodyObligation (pdat (F := F) m 0 c) (defs₀ (F := F)) Variants.none () Set.univ := fun t => by
  rw [bigSep_W0, bigSep_W0]
  exact point_sound m c t

/-! ## The run -/

set_option backward.isDefEq.respectTransparency.types false in
/-- From any memory with zero counters every weakly fair execution of @main terminates, and every final state has
    every array of the pipeline at what the library computes from the proof data and every other unscoped buffer as
    the region found it. -/
theorem run_to_post : θ_run defs (onTc (τ := τ) (main (F := F))) (s₀ m ρ) (Pipeline.FramePost cfgs (pdat m) 0 (atEntry m)) :=
  Pipeline.θ_run_frame cfgs (pdat m) (0 : Fin 1) launch0 defs₀ Variants.none m ρ main
    (hbody := fun c => (every_point m c).loose) (hshare := fun c => (pdat m 0 c).share_full fun _ => rfl)
    (howed := fun _ _ => rfl) (V := atEntry m) (hmain := main_prefix m Variants.none) (hA := pdat_A m) (hΦ := fun _ _ => rfl)

/-! ## The argument arrays after the run -/

/-- A staged input array ends as launched: its window never writes back, and no host line wrote it. -/
theorem kept_staged (r : PUnit × MemSt nD τ sig (Elt F)) (h : Pipeline.FramePost cfgs (pdat m) 0 (atEntry m) r) (c : Dev nD)
    (w : Fin cfg0.W) (hw : (cfg0.win w).isOut = false)
    (hb : ∀ y ∈ ([main_v0, main_v1, main_v2, main_v3, main_v4, main_v5, main_v6, main_v7, main_v8, main_v9] : List (Ref sig .tc)), Pipeline.arrRef spec0 w ≠ y) :
    r.2.mem (((cfgs 0).spec w).arr.view.loc (c.tc : Thread nD τ)) = m ((c : Thread nD τ).loc (Pipeline.arrRef spec0 w)) :=
  ((h c).1 w).trans (((pdat m 0 c).arrAt_in w hw _).trans ((pdat_A m c w).trans (atEntry_of_unwritten m c _ hb)))

/-- An argument array no window stages ends as launched. -/
theorem kept_unstaged (r : PUnit × MemSt nD τ sig (Elt F)) (h : Pipeline.FramePost cfgs (pdat m) 0 (atEntry m) r) (c : Dev nD)
    (b : Ref sig .tc) (hs : b.isScoped = false) (ha : ∀ w, (spec0 w).arr.view.ref ≠ b)
    (hb : ∀ y ∈ ([main_v0, main_v1, main_v2, main_v3, main_v4, main_v5, main_v6, main_v7, main_v8, main_v9] : List (Ref sig .tc)), b ≠ y) :
    r.2.mem ((c.tc : Thread nD τ).loc b) = m ((c : Thread nD τ).loc b) :=
  ((h c).2 b (Pipeline.mem_restRefs_of b hs ha)).trans (atEntry_of_unwritten m c b hb)

/-- All nineteen argument arrays end as launched. -/
theorem args_kept (r : PUnit × MemSt nD τ sig (Elt F)) (h : Pipeline.FramePost cfgs (pdat m) 0 (atEntry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨kept_staged m r h c 0 rfl (by decide), kept_staged m r h c 1 rfl (by decide), kept_staged m r h c 2 rfl (by decide),
    kept_unstaged m r h c main_arg3 (by decide) (by decide) (by decide),
    kept_unstaged m r h c main_arg4 (by decide) (by decide) (by decide),
    kept_unstaged m r h c main_arg5 (by decide) (by decide) (by decide),
    kept_unstaged m r h c main_arg6 (by decide) (by decide) (by decide),
    kept_unstaged m r h c main_arg7 (by decide) (by decide) (by decide),
    kept_unstaged m r h c main_arg8 (by decide) (by decide) (by decide),
    kept_unstaged m r h c main_arg9 (by decide) (by decide) (by decide),
    kept_unstaged m r h c main_arg10 (by decide) (by decide) (by decide),
    kept_unstaged m r h c main_arg11 (by decide) (by decide) (by decide),
    kept_unstaged m r h c main_arg12 (by decide) (by decide) (by decide),
    kept_unstaged m r h c main_arg13 (by decide) (by decide) (by decide),
    kept_unstaged m r h c main_arg14 (by decide) (by decide) (by decide),
    kept_unstaged m r h c main_arg15 (by decide) (by decide) (by decide),
    kept_unstaged m r h c main_arg16 (by decide) (by decide) (by decide),
    kept_unstaged m r h c main_arg17 (by decide) (by decide) (by decide),
    kept_unstaged m r h c main_arg18 (by decide) (by decide) (by decide)⟩

/-- THE FRAME: @main runs to the end, faults nowhere, and leaves its nineteen argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => args_kept m r h c) (run_to_post m ρ)

end Cert.KernelIdeal.CellRun

end
-- ==== Proof.Spec.lean ====
/-
  The LSTM cell both programs compute, as functions of the argument arrays over the extended reals.
  With x, h : [R, 1024] (R batch rows of the input and of the previous hidden state), c0 : [R, 1024] (the previous cell
  state), two weight matrices wi, wh : [1024, 4096] (the four gate blocks side by side) and one bias row b of 4096 entries:
    gate r q = (Σ_k x[r,k]·wi[k,q] + Σ_k h[r,k]·wh[k,q]) + b[q]
  and, the four gate blocks being the column ranges [0,1024), [1024,2048), [2048,3072), [3072,4096) of gate,
    cell   [r,j] = σ(gate r (1024+j)) · c0[r,j] + σ(gate r j) · tanh(gate r (2048+j))
    hidden [r,j] = σ(gate r (3072+j)) · cell[r,j]
  where σ z = 1 / (1 + e^(−z)). A row of the result depends on that row of x, h and c0 only, so the cell of a block of
  rows is that block of the cell of all rows (`cellAt_rows`, `hiddenAt_rows`). Nothing here needs the inputs finite:
  both programs add and multiply in this very order.
-/
import Idealize.ShloMosaic.PureOps.Ideal
import Idealize.ShloMosaic.Lib.ValueIdx

noncomputable section

namespace Cert.Lstm

open Idealize.ShloMosaic Idealize.ShloMosaic.ValueIdx

/-- [hidden, 4·hidden] = [1024, 4096]: a weight matrix, the four gate blocks side by side. -/
abbrev Wide : Shape := ⟨2, ![1024, 4096]⟩

/-- Column `j` of gate block `g` (0 input, 1 forget, 2 candidate, 3 output) among the 4096 gate columns. -/
def col (g : Fin 4) (j : Fin 1024) : Fin 4096 := ⟨g.val * 1024 + j.val, by have := g.isLt; have := j.isLt; omega⟩

theorem col_val (g : Fin 4) (j : Fin 1024) : (col g j).val = g.val * 1024 + j.val := rfl

variable {R : Nat}

/-- The pre-activation of gate column `q` at batch row `r`: the two matrix products, added, plus the bias. -/
def gate (x h : (⟨2, ![R, 1024]⟩ : Shape).Idx → EReal) (wi wh : Wide.Idx → EReal) (b : Fin 4096 → EReal) (r : Fin R) (q : Fin 4096) : EReal :=
  (∑ k : Fin 1024, x (ix2 r k) * wi (ix2 k q) + ∑ k : Fin 1024, h (ix2 r k) * wh (ix2 k q)) + b q

/-- The new cell state at row `r`, column `j`: forget gate times the old cell state plus input gate times the candidate. -/
def cellAt (x h c0 : (⟨2, ![R, 1024]⟩ : Shape).Idx → EReal) (wi wh : Wide.Idx → EReal) (b : Fin 4096 → EReal) (r : Fin R) (j : Fin 1024) : EReal :=
  Ideal.logistic (gate x h wi wh b r (col 1 j)) * c0 (ix2 r j)
    + Ideal.logistic (gate x h wi wh b r (col 0 j)) * Ideal.tanh (gate x h wi wh b r (col 2 j))

/-- The new hidden state at row `r`, column `j`: output gate times the new cell state. -/
def hiddenAt (x h c0 : (⟨2, ![R, 1024]⟩ : Shape).Idx → EReal) (wi wh : Wide.Idx → EReal) (b : Fin 4096 → EReal) (r : Fin R) (j : Fin 1024) : EReal :=
  Ideal.logistic (gate x h wi wh b r (col 3 j)) * cellAt x h c0 wi wh b r j

/-- The new cell state, all rows. -/
def cell (x h c0 : (⟨2, ![R, 1024]⟩ : Shape).Idx → EReal) (wi wh : Wide.Idx → EReal) (b : Fin 4096 → EReal) : (⟨2, ![R, 1024]⟩ : Shape).Idx → EReal :=
  fun i => cellAt x h c0 wi wh b (i 0) (i 1)

/-- The new hidden state, all rows. -/
def hidden (x h c0 : (⟨2, ![R, 1024]⟩ : Shape).Idx → EReal) (wi wh : Wide.Idx → EReal) (b : Fin 4096 → EReal) : (⟨2, ![R, 1024]⟩ : Shape).Idx → EReal :=
  fun i => hiddenAt x h c0 wi wh b (i 0) (i 1)

theorem cell_ix2 (x h c0 : (⟨2, ![R, 1024]⟩ : Shape).Idx → EReal) (wi wh : Wide.Idx → EReal) (b : Fin 4096 → EReal) (r : Fin R) (j : Fin 1024) :
    cell x h c0 wi wh b (ix2 r j) = cellAt x h c0 wi wh b r j := rfl

theorem hidden_ix2 (x h c0 : (⟨2, ![R, 1024]⟩ : Shape).Idx → EReal) (wi wh : Wide.Idx → EReal) (b : Fin 4096 → EReal) (r : Fin R) (j : Fin 1024) :
    hidden x h c0 wi wh b (ix2 r j) = hiddenAt x h c0 wi wh b r j := rfl

/-! ## A block of rows -/

variable {R' : Nat}

/-- A gate at row `p` of a block of rows whose row `p` is row `r` of the whole arrays is the whole arrays' gate at `r`. -/
theorem gate_rows (x h : (⟨2, ![R, 1024]⟩ : Shape).Idx → EReal) (X H : (⟨2, ![R', 1024]⟩ : Shape).Idx → EReal)
    (wi wh : Wide.Idx → EReal) (b : Fin 4096 → EReal) (p : Fin R) (r : Fin R')
    (hx : ∀ k : Fin 1024, x (ix2 p k) = X (ix2 r k)) (hh : ∀ k : Fin 1024, h (ix2 p k) = H (ix2 r k)) (q : Fin 4096) :
    gate x h wi wh b p q = gate X H wi wh b r q := by
  unfold gate
  have e1 : ∀ k : Fin 1024, x (ix2 p k) * wi (ix2 k q) = X (ix2 r k) * wi (ix2 k q) := fun k => by rw [hx k]
  have e2 : ∀ k : Fin 1024, h (ix2 p k) * wh (ix2 k q) = H (ix2 r k) * wh (ix2 k q) := fun k => by rw [hh k]
  rw [Finset.sum_congr rfl fun k _ => e1 k, Finset.sum_congr rfl fun k _ => e2 k]

/-- The same for the new cell state, -/
theorem cellAt_rows (x h c0 : (⟨2, ![R, 1024]⟩ : Shape).Idx → EReal) (X H C0 : (⟨2, ![R', 1024]⟩ : Shape).Idx → EReal)
    (wi wh : Wide.Idx → EReal) (b : Fin 4096 → EReal) (p : Fin R) (r : Fin R')
    (hx : ∀ k : Fin 1024, x (ix2 p k) = X (ix2 r k)) (hh : ∀ k : Fin 1024, h (ix2 p k) = H (ix2 r k))
    (hc : ∀ k : Fin 1024, c0 (ix2 p k) = C0 (ix2 r k)) (j : Fin 1024) :
    cellAt x h c0 wi wh b p j = cellAt X H C0 wi wh b r j := by
  unfold cellAt
  rw [gate_rows x h X H wi wh b p r hx hh, gate_rows x h X H wi wh b p r hx hh, gate_rows x h X H wi wh b p r hx hh, hc j]

/-- and for the new hidden state. -/
theorem hiddenAt_rows (x h c0 : (⟨2, ![R, 1024]⟩ : Shape).Idx → EReal) (X H C0 : (⟨2, ![R', 1024]⟩ : Shape).Idx → EReal)
    (wi wh : Wide.Idx → EReal) (b : Fin 4096 → EReal) (p : Fin R) (r : Fin R')
    (hx : ∀ k : Fin 1024, x (ix2 p k) = X (ix2 r k)) (hh : ∀ k : Fin 1024, h (ix2 p k) = H (ix2 r k))
    (hc : ∀ k : Fin 1024, c0 (ix2 p k) = C0 (ix2 r k)) (j : Fin 1024) :
    hiddenAt x h c0 wi wh b p j = hiddenAt X H C0 wi wh b r j := by
  unfold hiddenAt
  rw [gate_rows x h X H wi wh b p r hx hh, cellAt_rows x h c0 X H C0 wi wh b p r hx hh hc]

/-! ## Constants and the logistic function as the host spells it -/

/-- The pattern of `1.0` denotes `1`. -/
theorem ofBits_one : Ideal.ofBits .f32 0x3F800000#32 = 1 := by
  simp [Ideal.ofBits, Ideal.ieee, -EReal.coe_mul]; norm_num

/-- The pattern of `+0.0` denotes `0`. -/
theorem ofBits_zero : Ideal.ofBits .f32 0x00000000#32 = 0 := by
  simp [Ideal.ofBits, Ideal.ieee]

/-- `1 / (1 + e^(−z))` spelt with the pattern of `1.0` is the logistic function. -/
theorem logistic_spelt (z : EReal) :
    Ideal.div (Ideal.ofBits .f32 0x3F800000#32) (Ideal.ofBits .f32 0x3F800000#32 + Ideal.exp (-z)) = Ideal.logistic z := by
  rw [ofBits_one]; rfl

end Cert.Lstm

end
-- ==== Proof.BlockCell.lean ====
/-
  What the kernel body computes from the six blocks it loads at one grid point, read over the extended reals at an
  index, is the LSTM cell of the specification at 256 rows. The body forms the [256, 4096] block of gate pre-activations
  (the x block times the first weight matrix plus the h block times the second, each product accumulated into zero, plus
  the bias row broadcast over the 256 rows), cuts it into four column ranges of width 1024, and combines them:
  new cell = σ(second range) · old cell + σ(first range) · tanh(third range); new hidden = σ(fourth range) · new cell.
  Over the extended reals a change of float format is the identity, a matrix product into a zero accumulator read at
  (p, q) is the plain sum over the 1024 contraction positions, a column range read at (p, j) is the whole block read at
  (p, g·1024 + j), and the broadcast bias read at (p, q) is the bias row at q. The sums and products stand in the same
  order on both sides, so the equalities are by unfolding alone.
-/
import proofs.«106889_j38414187495767_1_alg».proof.Proof.Gen.KernelIdeal.Skeleton
import proofs.«106889_j38414187495767_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.BlockCell

open Idealize.ShloMosaic Idealize.ShloMosaic.ValueIdx Cert.KernelIdeal Cert.KernelIdeal.Gen

/-! ## One matrix product into the zero accumulator, read at (p, q) -/

/-- The left operand's index at output (p, q) and contraction position k: row p … -/
theorem lhs_row (i : S256x4096.Idx) (c : dot_S256x1024_S1024x4096_S256x4096_1_0_0_1_n_n.contr.Idx) :
    (dot_S256x1024_S1024x4096_S256x4096_1_0_0_1_n_n.lhsIdx i c 0).val = (i 0).val := by
  unfold DotDims.lhsIdx
  rw [dif_neg (show ¬(0 : Fin S256x1024.rank) ∈ dot_S256x1024_S1024x4096_S256x4096_1_0_0_1_n_n.lhsBatch by decide),
    dif_pos (show (0 : Fin S256x1024.rank) ∈ dot_S256x1024_S1024x4096_S256x4096_1_0_0_1_n_n.lhsNonContracting by decide)]
  rfl

/-- … column k. -/
theorem lhs_col (i : S256x4096.Idx) (c : dot_S256x1024_S1024x4096_S256x4096_1_0_0_1_n_n.contr.Idx) :
    (dot_S256x1024_S1024x4096_S256x4096_1_0_0_1_n_n.lhsIdx i c 1).val = (c ⟨0, by decide⟩).val :=
  dot_S256x1024_S1024x4096_S256x4096_1_0_0_1_n_n.lhsIdx_val_of_single rfl i c

/-- The right operand's index there: row k … -/
theorem rhs_row (i : S256x4096.Idx) (c : dot_S256x1024_S1024x4096_S256x4096_1_0_0_1_n_n.contr.Idx) :
    (dot_S256x1024_S1024x4096_S256x4096_1_0_0_1_n_n.rhsIdx i c 0).val = (c ⟨0, by decide⟩).val :=
  dot_S256x1024_S1024x4096_S256x4096_1_0_0_1_n_n.rhsIdx_val_of_single rfl i c

/-- … column q. -/
theorem rhs_col (i : S256x4096.Idx) (c : dot_S256x1024_S1024x4096_S256x4096_1_0_0_1_n_n.contr.Idx) :
    (dot_S256x1024_S1024x4096_S256x4096_1_0_0_1_n_n.rhsIdx i c 1).val = (i 1).val := by
  unfold DotDims.rhsIdx
  rw [dif_neg (show ¬(1 : Fin S1024x4096.rank) ∈ dot_S256x1024_S1024x4096_S256x4096_1_0_0_1_n_n.rhsBatch by decide),
    dif_pos (show (1 : Fin S1024x4096.rank) ∈ dot_S256x1024_S1024x4096_S256x4096_1_0_0_1_n_n.rhsNonContracting by decide)]
  rfl

/-- A [256, 1024] × [1024, 4096] product accumulated into the zero block, at (p, q): Σ_k a[p,k] · w[k,q]. -/
theorem matmul_zero_at (a : FVec Ideal S256x1024 .bf16) (w : FVec Ideal S1024x4096 .bf16) (p : Fin 256) (q : Fin 4096) :
    matmul (F := Ideal) dot_S256x1024_S1024x4096_S256x4096_1_0_0_1_n_n none a w
        (constant (F := Ideal) S256x4096 .f32 0x00000000#32) (ix2 p q)
      = ∑ k : Fin 1024, a (ix2 p k) * w (ix2 k q) := by
  refine (Ideal.matmul_constant_zero_apply dot_S256x1024_S1024x4096_S256x4096_1_0_0_1_n_n none a w (ix2 p q)).trans ?_
  rw [← Equiv.sum_comp (contrEquiv1 dot_S256x1024_S1024x4096_S256x4096_1_0_0_1_n_n 1024 rfl rfl).symm]
  refine Finset.sum_congr rfl fun k _ => ?_
  have hk := contrEquiv1_symm_val dot_S256x1024_S1024x4096_S256x4096_1_0_0_1_n_n 1024 rfl rfl k
  have el : dot_S256x1024_S1024x4096_S256x4096_1_0_0_1_n_n.lhsIdx (ix2 p q)
      ((contrEquiv1 dot_S256x1024_S1024x4096_S256x4096_1_0_0_1_n_n 1024 rfl rfl).symm k) = ix2 p k :=
    funext fun d => Fin.ext (by
      match d with
      | ⟨0, _⟩ => exact lhs_row _ _
      | ⟨1, _⟩ => exact (lhs_col _ _).trans hk)
  have er : dot_S256x1024_S1024x4096_S256x4096_1_0_0_1_n_n.rhsIdx (ix2 p q)
      ((contrEquiv1 dot_S256x1024_S1024x4096_S256x4096_1_0_0_1_n_n 1024 rfl rfl).symm k) = ix2 k q :=
    funext fun d => Fin.ext (by
      match d with
      | ⟨0, _⟩ => exact (rhs_row _ _).trans hk
      | ⟨1, _⟩ => exact rhs_col _ _)
  rw [el, er]

/-! ## The block of gate pre-activations -/

/-- The [256, 4096] block the body slices, at (p, q): the two products, added, plus the bias row at q. -/
theorem gates_block (x h : Vec Ideal S256x1024 .f32) (wi wh : Vec Ideal S1024x4096 .bf16) (b : Vec Ideal S1x4096 .f32)
    (p : Fin 256) (q : Fin 4096) :
    Gen.k0_pay1 (F := Ideal) x h wi wh b (ix2 p q)
      = Cert.Lstm.gate (R := 256) x h wi wh (fun q => b (ix2 (0 : Fin 1) q)) p q := by
  unfold Gen.k0_pay1 Cert.Lstm.gate
  -- a shape cast to the same shape is the identity
  rw [shapeCast_self wi, shapeCast_self wh, shapeCast_self b]
  -- the sums add element by element; the conversions to the narrower format are the identity
  refine congrArg₂ (· + ·) (congrArg₂ (· + ·) ?_ ?_) ?_
  · exact matmul_zero_at (truncf .bf16 x bitsLt_bf16_f32) wi p q
  · exact matmul_zero_at (truncf .bf16 h bitsLt_bf16_f32) wh p q
  · exact broadcastTo_1b_ab_apply b broadcasts_S1x4096_S256x4096 p q

/-! ## The four column ranges, the cell and the hidden state -/

/-- The column range of width 1024 that starts at column g·1024, read at (p, j), is the block of gates read at
    (p, g·1024 + j): the specification's gate column `col g j` at row p. -/
theorem range_at (x h : Vec Ideal S256x1024 .f32) (wi wh : Vec Ideal S1024x4096 .bf16) (b : Vec Ideal S1x4096 .f32)
    (o : Nat) (hs : S256x4096.Slices ![0, o] S256x1024) (g : Fin 4) (ho : o = g.val * 1024) (p : Fin 256) (j : Fin 1024) :
    extractStridedSlice S256x1024 ![0, o] (Gen.k0_pay1 (F := Ideal) x h wi wh b) hs (ix2 p j)
      = Cert.Lstm.gate (R := 256) x h wi wh (fun q => b (ix2 (0 : Fin 1) q)) p (Cert.Lstm.col g j) :=
  (slice2_axis1_apply o (Gen.k0_pay1 (F := Ideal) x h wi wh b) hs p j (Cert.Lstm.col g j)
    (by rw [Cert.Lstm.col_val, ho])).trans (gates_block x h wi wh b p (Cert.Lstm.col g j))

/-- The block the body stores as the new cell state, at (p, j): σ(forget gate) · old cell + σ(input gate) · tanh(candidate). -/
theorem cell_block (x h c0 : Vec Ideal S256x1024 .f32) (wi wh : Vec Ideal S1024x4096 .bf16) (b : Vec Ideal S1x4096 .f32)
    (p : Fin 256) (j : Fin 1024) :
    Gen.k0_pay2 (F := Ideal) x h wi wh b c0 (ix2 p j)
      = Cert.Lstm.cellAt (R := 256) x h c0 wi wh (fun q => b (ix2 (0 : Fin 1) q)) p j := by
  unfold Gen.k0_pay2 Cert.Lstm.cellAt
  -- sums, products, σ and tanh act element by element
  refine congrArg₂ (· + ·) (congrArg₂ (· * ·) (congrArg Ideal.logistic ?_) rfl)
    (congrArg₂ (· * ·) (congrArg Ideal.logistic ?_) (congrArg Ideal.tanh ?_))
  · exact range_at x h wi wh b 1024 slices_S256x4096_o0_1024_S256x1024 1 rfl p j
  · exact range_at x h wi wh b 0 slices_S256x4096_o0_0_S256x1024 0 rfl p j
  · exact range_at x h wi wh b 2048 slices_S256x4096_o0_2048_S256x1024 2 rfl p j

/-- The block the body stores as the new hidden state, at (p, j): σ(output gate) · new cell. -/
theorem hidden_block (x h c0 : Vec Ideal S256x1024 .f32) (wi wh : Vec Ideal S1024x4096 .bf16) (b : Vec Ideal S1x4096 .f32)
    (p : Fin 256) (j : Fin 1024) :
    Gen.k0_pay3 (F := Ideal) x h wi wh b c0 (ix2 p j)
      = Cert.Lstm.hiddenAt (R := 256) x h c0 wi wh (fun q => b (ix2 (0 : Fin 1) q)) p j := by
  unfold Gen.k0_pay3 Cert.Lstm.hiddenAt
  refine congrArg₂ (· * ·) (congrArg Ideal.logistic ?_) (cell_block x h c0 wi wh b p j)
  exact range_at x h wi wh b 3072 slices_S256x4096_o0_3072_S256x1024 3 rfl p j

end Cert.KernelIdeal.BlockCell

end
-- ==== Proof.IdealValue.lean ====
/-
  What the idealized kernel's two result arrays hold after its run, over the extended reals: the new hidden state and
  the new cell state of the LSTM cell (Proof/Spec.lean) of the argument arrays. Grid point `t` stages rows
  256·t … 256·t+255 of x, h0 and c0 and the two wide weight matrices and the bias row whole; a result row depends on
  that row of x, h0 and c0 only, so what the point writes back is rows 256·t … 256·t+255 of the cell of ALL rows; the
  sixteen row blocks tile the 4096 rows, so each result array ends at the cell of all rows.
-/
import proofs.«106889_j38414187495767_1_alg».proof.Proof.IdealRun
import proofs.«106889_j38414187495767_1_alg».proof.Proof.Spec
import proofs.«106889_j38414187495767_1_alg».proof.Proof.BlockCell
import Idealize.ShloMosaic.Lib.Pipeline.Value
import Idealize.ShloMosaic.Lib.ValueIdx
import Idealize.ShloMosaic.Lib.StableHlo.Run

set_option maxRecDepth 16384

noncomputable section

namespace Cert.KernelIdeal.CellValue

open Cert.KernelIdeal Cert.KernelIdeal.Gen Cert.KernelIdeal.CellRun
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The weights and the bias the host lines build -/

/-- The input-side weight matrix: the four [1024,1024] matrices side by side. -/
def wiOf (c : Dev nD) : S1024x4096.Idx → EReal :=
  concatenate (α := EReal) S1024x4096 1 [⟨S1024x1024, m ((c : Thread nD τ).loc main_arg3)⟩, ⟨S1024x1024, m ((c : Thread nD τ).loc main_arg5)⟩,
    ⟨S1024x1024, m ((c : Thread nD τ).loc main_arg7)⟩, ⟨S1024x1024, m ((c : Thread nD τ).loc main_arg9)⟩]
    Facts₀.concatenates_S1024x1024_S1024x1024_S1024x1024_S1024x1024_S1024x4096_d1

/-- The hidden-side weight matrix. -/
def whOf (c : Dev nD) : S1024x4096.Idx → EReal :=
  concatenate (α := EReal) S1024x4096 1 [⟨S1024x1024, m ((c : Thread nD τ).loc main_arg11)⟩, ⟨S1024x1024, m ((c : Thread nD τ).loc main_arg13)⟩,
    ⟨S1024x1024, m ((c : Thread nD τ).loc main_arg15)⟩, ⟨S1024x1024, m ((c : Thread nD τ).loc main_arg17)⟩]
    Facts₀.concatenates_S1024x1024_S1024x1024_S1024x1024_S1024x1024_S1024x4096_d1

/-- The bias row: the four pairwise sums end to end. -/
def biasOf (c : Dev nD) : S4096.Idx → EReal :=
  concatenate (α := EReal) S4096 0 [⟨S1024, addf (F := Ideal) (s := S1024) (φ := .f32) (m ((c : Thread nD τ).loc main_arg4)) (m ((c : Thread nD τ).loc main_arg12))⟩,
    ⟨S1024, addf (F := Ideal) (s := S1024) (φ := .f32) (m ((c : Thread nD τ).loc main_arg6)) (m ((c : Thread nD τ).loc main_arg14))⟩,
    ⟨S1024, addf (F := Ideal) (s := S1024) (φ := .f32) (m ((c : Thread nD τ).loc main_arg8)) (m ((c : Thread nD τ).loc main_arg16))⟩,
    ⟨S1024, addf (F := Ideal) (s := S1024) (φ := .f32) (m ((c : Thread nD τ).loc main_arg10)) (m ((c : Thread nD τ).loc main_arg18))⟩]
    Facts₀.concatenates_S1024_S1024_S1024_S1024_S4096_d0

/-- The region finds the input-side weights converted to bf16: over the extended reals the conversion is the identity. -/
theorem entry_wi (c : Dev nD) : (atEntry m c main_v1 : S1024x4096.Idx → EReal) = wiOf m c := by
  dsimp only [atEntry, hostOps0]
  after_results
  rfl

theorem entry_wh (c : Dev nD) : (atEntry m c main_v3 : S1024x4096.Idx → EReal) = whOf m c := by
  dsimp only [atEntry, hostOps0]
  after_results
  rfl

/-- The region finds the bias row reshaped to one row of 4096. -/
theorem entry_bias (c : Dev nD) : (atEntry m c main_v9 : S1x4096.Idx → EReal)
    = shapeCast (α := EReal) S1x4096 (biasOf m c) Facts₀.shapeCasts_S4096_S1x4096 := by
  dsimp only [atEntry, hostOps0]
  after_results
  rfl

/-! ## The windows' blocks, read -/

/-- The index maps over the grid: the row windows (x, h0, c0 and the two results) sit at block row `t`, the windows
    that stage a whole array at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row \`p\` of x's block at point \`t\` is row 256·t + p of x as launched. -/
theorem rows_x (c : Dev nD) (t : Fin cfg0.N) (p : Fin 256) (k : Fin 1024) (r : Fin 4096) (hr : r.val = 256 * t.val + p.val) :
    (blockAt m c 0 t : S256x1024.Idx → EReal) (ix2 p k) = m ((c : Thread nD τ).loc main_arg0) (ix2 r k) := by
  unfold blockAt
  show atEntry m c main_arg0 (((cfg0.win 0).blk t).view.emb (ix2 p k)) = _
  rw [atEntry_of_unwritten m c main_arg0 (by decide)]
  congr 1
  funext a; apply Fin.ext
  obtain ⟨e00, e01, e10, e11, e20, e21, -⟩ := index_facts t
  match a with
  | ⟨0, _⟩ => show win0_0.index t (0 : Fin 2) * 256 + 1 * p.val = r.val; omega
  | ⟨1, _⟩ => show win0_0.index t (1 : Fin 2) * 1024 + 1 * k.val = k.val; omega

/-- The same for the previous hidden state, -/
theorem rows_h (c : Dev nD) (t : Fin cfg0.N) (p : Fin 256) (k : Fin 1024) (r : Fin 4096) (hr : r.val = 256 * t.val + p.val) :
    (blockAt m c 1 t : S256x1024.Idx → EReal) (ix2 p k) = m ((c : Thread nD τ).loc main_arg1) (ix2 r k) := by
  unfold blockAt
  show atEntry m c main_arg1 (((cfg0.win 1).blk t).view.emb (ix2 p k)) = _
  rw [atEntry_of_unwritten m c main_arg1 (by decide)]
  congr 1
  funext a; apply Fin.ext
  obtain ⟨e00, e01, e10, e11, e20, e21, -⟩ := index_facts t
  match a with
  | ⟨0, _⟩ => show win0_1.index t (0 : Fin 2) * 256 + 1 * p.val = r.val; omega
  | ⟨1, _⟩ => show win0_1.index t (1 : Fin 2) * 1024 + 1 * k.val = k.val; omega

/-- and for the previous cell state. -/
theorem rows_c (c : Dev nD) (t : Fin cfg0.N) (p : Fin 256) (k : Fin 1024) (r : Fin 4096) (hr : r.val = 256 * t.val + p.val) :
    (blockAt m c 2 t : S256x1024.Idx → EReal) (ix2 p k) = m ((c : Thread nD τ).loc main_arg2) (ix2 r k) := by
  unfold blockAt
  show atEntry m c main_arg2 (((cfg0.win 2).blk t).view.emb (ix2 p k)) = _
  rw [atEntry_of_unwritten m c main_arg2 (by decide)]
  congr 1
  funext a; apply Fin.ext
  obtain ⟨e00, e01, e10, e11, e20, e21, -⟩ := index_facts t
  match a with
  | ⟨0, _⟩ => show win0_2.index t (0 : Fin 2) * 256 + 1 * p.val = r.val; omega
  | ⟨1, _⟩ => show win0_2.index t (1 : Fin 2) * 1024 + 1 * k.val = k.val; omega

/-- The input-side weights are staged whole: their block at every point is the matrix the host lines built. -/
theorem whole_wi (c : Dev nD) (t : Fin cfg0.N) : (blockAt m c 3 t : S1024x4096.Idx → EReal) = wiOf m c := by
  rw [← entry_wi]
  funext z
  unfold blockAt
  show atEntry m c main_v1 (((cfg0.win 3).blk t).view.emb z) = atEntry m c main_v1 z
  congr 1
  funext a; apply Fin.ext
  obtain ⟨-, -, -, -, -, -, e30, e31, -⟩ := index_facts t
  match a with
  | ⟨0, _⟩ => show win0_3.index t (0 : Fin 2) * 1024 + 1 * (z 0).val = (z 0).val; omega
  | ⟨1, _⟩ => show win0_3.index t (1 : Fin 2) * 4096 + 1 * (z 1).val = (z 1).val; omega

/-- So are the hidden-side weights, -/
theorem whole_wh (c : Dev nD) (t : Fin cfg0.N) : (blockAt m c 4 t : S1024x4096.Idx → EReal) = whOf m c := by
  rw [← entry_wh]
  funext z
  unfold blockAt
  show atEntry m c main_v3 (((cfg0.win 4).blk t).view.emb z) = atEntry m c main_v3 z
  congr 1
  funext a; apply Fin.ext
  obtain ⟨-, -, -, -, -, -, -, -, e40, e41, -⟩ := index_facts t
  match a with
  | ⟨0, _⟩ => show win0_4.index t (0 : Fin 2) * 1024 + 1 * (z 0).val = (z 0).val; omega
  | ⟨1, _⟩ => show win0_4.index t (1 : Fin 2) * 4096 + 1 * (z 1).val = (z 1).val; omega

/-- and the bias row: entry `q` of its one row is entry `q` of the bias the host lines built. -/
theorem whole_bias (c : Dev nD) (t : Fin cfg0.N) (q : Fin 4096) :
    (blockAt m c 5 t : S1x4096.Idx → EReal) (ix2 (0 : Fin 1) q) = biasOf m c (ix1 q) := by
  unfold blockAt
  show atEntry m c main_v9 (((cfg0.win 5).blk t).view.emb (ix2 (0 : Fin 1) q)) = _
  have e : ((cfg0.win 5).blk t).view.emb (ix2 (0 : Fin 1) q) = (ix2 (0 : Fin 1) q : S1x4096.Idx) := by
    funext a; apply Fin.ext
    obtain ⟨-, -, -, -, -, -, -, -, -, -, e50, e51, -⟩ := index_facts t
    match a with
    | ⟨0, _⟩ => show win0_5.index t (0 : Fin 2) * 1 + 1 * 0 = 0; omega
    | ⟨1, _⟩ => show win0_5.index t (1 : Fin 2) * 4096 + 1 * q.val = q.val; omega
  rw [e, entry_bias]
  refine shapeCast_apply _ _ _ (ix1 q) ?_
  rw [Shape.rowMajor_val_one, Shape.rowMajor_val_two]
  show q.val = 0 * 4096 + q.val
  omega

/-! ## What a point writes back -/

/-- The new hidden state of all 4096 rows, of the argument arrays as launched. -/
def hiddenAll (c : Dev nD) : S4096x1024.Idx → EReal :=
  Cert.Lstm.hidden (R := 4096) (m ((c : Thread nD τ).loc main_arg0)) (m ((c : Thread nD τ).loc main_arg1)) (m ((c : Thread nD τ).loc main_arg2))
    (wiOf m c) (whOf m c) (fun q => biasOf m c (ix1 q))

/-- The new cell state of all 4096 rows. -/
def cellAll (c : Dev nD) : S4096x1024.Idx → EReal :=
  Cert.Lstm.cell (R := 4096) (m ((c : Thread nD τ).loc main_arg0)) (m ((c : Thread nD τ).loc main_arg1)) (m ((c : Thread nD τ).loc main_arg2))
    (wiOf m c) (whOf m c) (fun q => biasOf m c (ix1 q))

theorem origin2 : (![0, 0] : Fin 2 → Nat) = fun _ => 0 := funext fun a => by fin_cases a <;> rfl

/-- The bias row's block, entry by entry. -/
theorem bias_fun (c : Dev nD) (t : Fin cfg0.N) :
    (fun q : Fin 4096 => (blockAt m c 5 t : S1x4096.Idx → EReal) (ix2 (0 : Fin 1) q)) = fun q => biasOf m c (ix1 q) :=
  funext fun q => whole_bias m c t q

/-- Point \`t\` writes back rows 256·t … 256·t+255 of the new hidden state of all rows, -/
theorem wrote_hidden (c : Dev nD) (t : Fin cfg0.N) :
    (pdat m 0 c).flushed 6 t = ((cfg0.win 6).blk t).view.read (Elt Ideal) (hiddenAll m c) := by
  show (cfg0.win 6).cut (grid0.coords t) ((pdat m 0 c).after 6 t) = _
  rw [left6]
  unfold hiddenLeft
  rw [View.canon_unit_zero origin2]
  simp only [View.ld_unit_zero (S := S256x1024) origin2, View.ld_unit_zero (S := S1024x4096) origin2, View.ld_unit_zero (S := S1x4096) origin2]
  funext y
  show k0_pay3 (F := Ideal) (blockAt m c 0 t) (blockAt m c 1 t) (blockAt m c 3 t) (blockAt m c 4 t) (blockAt m c 5 t) (blockAt m c 2 t) y
    = hiddenAll m c (((cfg0.win 6).blk t).view.emb y)
  obtain ⟨p, j, rfl⟩ : ∃ (p : Fin 256) (j : Fin 1024), y = ix2 p j := ⟨y 0, y 1, eq_ix2 y⟩
  have ht : t.val < 16 := Nat.lt_of_lt_of_eq t.isLt N_0
  obtain ⟨r, hr⟩ : ∃ r : Fin 4096, r.val = 256 * t.val + p.val := ⟨⟨256 * t.val + p.val, by have := p.isLt; omega⟩, rfl⟩
  have e : ((cfg0.win 6).blk t).view.emb (ix2 p j) = (ix2 r j : S4096x1024.Idx) := by
    funext a; apply Fin.ext
    obtain ⟨-, -, -, -, -, -, -, -, -, -, -, -, e60, e61, e70, e71⟩ := index_facts t
    match a with
    | ⟨0, _⟩ => show win0_6.index t (0 : Fin 2) * 256 + 1 * p.val = r.val; omega
    | ⟨1, _⟩ => show win0_6.index t (1 : Fin 2) * 1024 + 1 * j.val = j.val; omega
  rw [e]
  refine (Cert.KernelIdeal.BlockCell.hidden_block (blockAt m c 0 t) (blockAt m c 1 t) (blockAt m c 2 t) (blockAt m c 3 t) (blockAt m c 4 t) (blockAt m c 5 t) p j).trans ?_
  rw [bias_fun m c t]
  show Cert.Lstm.hiddenAt (R := 256) (blockAt m c 0 t : S256x1024.Idx → EReal) (blockAt m c 1 t : S256x1024.Idx → EReal) (blockAt m c 2 t : S256x1024.Idx → EReal)
      (blockAt m c 3 t : S1024x4096.Idx → EReal) (blockAt m c 4 t : S1024x4096.Idx → EReal) (fun q => biasOf m c (ix1 q)) p j = _
  rw [whole_wi m c t, whole_wh m c t]
  exact Cert.Lstm.hiddenAt_rows _ _ _ _ _ _ _ _ _ p r (fun k => rows_x m c t p k r hr) (fun k => rows_h m c t p k r hr) (fun k => rows_c m c t p k r hr) j

/-- and of the new cell state of all rows. -/
theorem wrote_cell (c : Dev nD) (t : Fin cfg0.N) :
    (pdat m 0 c).flushed 7 t = ((cfg0.win 7).blk t).view.read (Elt Ideal) (cellAll m c) := by
  show (cfg0.win 7).cut (grid0.coords t) ((pdat m 0 c).after 7 t) = _
  rw [left7]
  unfold cellLeft
  rw [View.canon_unit_zero origin2]
  simp only [View.ld_unit_zero (S := S256x1024) origin2, View.ld_unit_zero (S := S1024x4096) origin2, View.ld_unit_zero (S := S1x4096) origin2]
  funext y
  show k0_pay2 (F := Ideal) (blockAt m c 0 t) (blockAt m c 1 t) (blockAt m c 3 t) (blockAt m c 4 t) (blockAt m c 5 t) (blockAt m c 2 t) y
    = cellAll m c (((cfg0.win 7).blk t).view.emb y)
  obtain ⟨p, j, rfl⟩ : ∃ (p : Fin 256) (j : Fin 1024), y = ix2 p j := ⟨y 0, y 1, eq_ix2 y⟩
  have ht : t.val < 16 := Nat.lt_of_lt_of_eq t.isLt N_0
  obtain ⟨r, hr⟩ : ∃ r : Fin 4096, r.val = 256 * t.val + p.val := ⟨⟨256 * t.val + p.val, by have := p.isLt; omega⟩, rfl⟩
  have e : ((cfg0.win 7).blk t).view.emb (ix2 p j) = (ix2 r j : S4096x1024.Idx) := by
    funext a; apply Fin.ext
    obtain ⟨-, -, -, -, -, -, -, -, -, -, -, -, e60, e61, e70, e71⟩ := index_facts t
    match a with
    | ⟨0, _⟩ => show win0_7.index t (0 : Fin 2) * 256 + 1 * p.val = r.val; omega
    | ⟨1, _⟩ => show win0_7.index t (1 : Fin 2) * 1024 + 1 * j.val = j.val; omega
  rw [e]
  refine (Cert.KernelIdeal.BlockCell.cell_block (blockAt m c 0 t) (blockAt m c 1 t) (blockAt m c 2 t) (blockAt m c 3 t) (blockAt m c 4 t) (blockAt m c 5 t) p j).trans ?_
  rw [bias_fun m c t]
  show Cert.Lstm.cellAt (R := 256) (blockAt m c 0 t : S256x1024.Idx → EReal) (blockAt m c 1 t : S256x1024.Idx → EReal) (blockAt m c 2 t : S256x1024.Idx → EReal)
      (blockAt m c 3 t : S1024x4096.Idx → EReal) (blockAt m c 4 t : S1024x4096.Idx → EReal) (fun q => biasOf m c (ix1 q)) p j = _
  rw [whole_wi m c t, whole_wh m c t]
  exact Cert.Lstm.cellAt_rows _ _ _ _ _ _ _ _ _ p r (fun k => rows_x m c t p k r hr) (fun k => rows_h m c t p k r hr) (fun k => rows_c m c t p k r hr) j

/-! ## The blocks tile the arrays -/

/-- An index of the hidden-state array is in point `t`'s block iff its row is among rows 256·t … 256·t+255. -/
theorem in_block_hidden (t : Fin cfg0.N) (i : S4096x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v10_0).slice (win0_6.rect t)).set ↔ _
  rw [View.set_slice_whole, Rect.mem_set_unit]
  exact Iff.rfl

/-- Every row lies in the block of the point `row / 256`: the sixteen blocks tile the array. -/
theorem tiled_hidden (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  obtain ⟨t, ht⟩ : ∃ t : Fin cfg0.N, t.val = (i 0).val / 256 := ⟨⟨(i 0).val / 256, Nat.lt_of_lt_of_eq (by omega) N_0.symm⟩, rfl⟩
  refine ⟨t, flush0_6 t, ?_⟩
  rw [in_block_hidden]
  obtain ⟨-, -, -, -, -, -, -, -, -, -, -, -, e60, e61, e70, e71⟩ := index_facts t
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1024 ≤ (i 1).val ∧ (i 1).val < win0_6.index t (1 : Fin 2) * 1024 + 1024; omega

/-- An index of the cell-state array is in point `t`'s block iff its row is among rows 256·t … 256·t+255. -/
theorem in_block_cell (t : Fin cfg0.N) (i : S4096x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v10_1).slice (win0_7.rect t)).set ↔ _
  rw [View.set_slice_whole, Rect.mem_set_unit]
  exact Iff.rfl

/-- Every row lies in the block of the point `row / 256`: the sixteen blocks tile the array. -/
theorem tiled_cell (i : S4096x1024.Idx) : ∃ t : Fin cfg0.N, (cfg0.win 7).flush t = true ∧ i ∈ ((cfg0.win 7).blk t).view.set := by
  have hi0 : (i 0).val < 4096 := (i 0).isLt
  have hi1 : (i 1).val < 1024 := (i 1).isLt
  obtain ⟨t, ht⟩ : ∃ t : Fin cfg0.N, t.val = (i 0).val / 256 := ⟨⟨(i 0).val / 256, Nat.lt_of_lt_of_eq (by omega) N_0.symm⟩, rfl⟩
  refine ⟨t, flush0_7 t, ?_⟩
  rw [in_block_cell]
  obtain ⟨-, -, -, -, -, -, -, -, -, -, -, -, e60, e61, e70, e71⟩ := index_facts t
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 1024 ≤ (i 1).val ∧ (i 1).val < win0_7.index t (1 : Fin 2) * 1024 + 1024; omega

/-! ## The arrays after the run -/

/-- The hidden-state array ends at the new hidden state of all rows, -/
theorem final_hidden (c : Dev nD) : (pdat m 0 c).arrAt 6 cfg0.N = hiddenAll m c :=
  (pdat m 0 c).arrAt_eq_of_cover 6 (hiddenAll m c) (fun t _ => wrote_hidden m c t) (tiled_hidden)

/-- the cell-state array at the new cell state of all rows. -/
theorem final_cell (c : Dev nD) : (pdat m 0 c).arrAt 7 cfg0.N = cellAll m c :=
  (pdat m 0 c).arrAt_eq_of_cover 7 (cellAll m c) (fun t _ => wrote_cell m c t) (tiled_cell)

/-- The kernel's run, read: both results at the cell of the argument arrays, the arguments unchanged. -/
theorem run : θ_run defs (onTc (τ := τ) (main (F := Ideal))) ⟨m, fun _ => 0, ρ⟩ fun r => ∀ c : Dev nD,
      r.2.mem ((c.tc : Thread nD τ).loc main_v10_0) = hiddenAll m c
      ∧ r.2.mem ((c.tc : Thread nD τ).loc main_v10_1) = cellAll m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨((h c).1 6).trans (final_hidden m c), ((h c).1 7).trans (final_cell m c), args_kept m r h c⟩)
    (run_to_post m ρ)

end Cert.KernelIdeal.CellValue

end
-- ==== Proof.RefCell.lean ====
/-
  The reference program's two results, read over the extended reals, are the LSTM cell of the specification.

  The reference joins the four input-side weight blocks into one matrix wi : [1024, 4096], the four hidden-side blocks
  into wh : [1024, 4096], and the four sums of an input-side and a hidden-side bias into one row b of 4096 entries.
  These three joined arrays are never opened here: the specification takes them whole. Every later operation reads
  one element of each operand, so at row r and column j:
    the pre-activation array  P[r, q] = (Σ_k x[r,k]·wi[k,q] + Σ_k h[r,k]·wh[k,q]) + b[q]  is the specification's gate;
    the four column slices of width 1024 read P at columns j, 1024 + j, 2048 + j, 3072 + j, the four gate blocks;
    1 / (1 + e^(−z)), with 1 written as its float pattern, is the logistic function of z;
    the first result is  σ(P[r, 1024 + j])·c0[r, j] + σ(P[r, j])·tanh(P[r, 2048 + j]),  the new cell state;
    the second is  σ(P[r, 3072 + j])  times the first, the new hidden state.
  Sums and products stand in the same order on both sides, so nothing but unfolding is needed.
-/
import proofs.«106889_j38414187495767_1_alg».proof.Proof.Gen.ReferenceIdeal.Read
import proofs.«106889_j38414187495767_1_alg».proof.Proof.Spec
import Idealize.ShloMosaic.PureOps.Ideal
import Idealize.ShloMosaic.Lib.ValueIdx

noncomputable section

namespace Cert.ReferenceIdeal.RefCell

open Cert.ReferenceIdeal Cert.ReferenceIdeal.Gen Idealize.ShloMosaic Idealize.ShloMosaic.TcCoe Idealize.SL.Sem Idealize.ShloMosaic.StableHlo
open Idealize.ShloMosaic.ValueIdx

/-! ## Where each operation reads its operand -/

/-- Row `r`, column `q` of a product reads row `r` of the left factor at `k`, -/
theorem lidx7 (r q : Fin 4096) (k : Fin 1024) : Read.lidx_main_v7 (ix2 r q) k = ix2 r k :=
  funext fun a => Fin.ext (by match a with | ⟨0, _⟩ => rfl | ⟨1, _⟩ => rfl)

/-- and column `q` of the right factor at `k`. -/
theorem ridx7 (r q : Fin 4096) (k : Fin 1024) : Read.ridx_main_v7 (ix2 r q) k = ix2 k q :=
  funext fun a => Fin.ext (by match a with | ⟨0, _⟩ => rfl | ⟨1, _⟩ => rfl)

theorem lidx8 (r q : Fin 4096) (k : Fin 1024) : Read.lidx_main_v8 (ix2 r q) k = ix2 r k :=
  funext fun a => Fin.ext (by match a with | ⟨0, _⟩ => rfl | ⟨1, _⟩ => rfl)

theorem ridx8 (r q : Fin 4096) (k : Fin 1024) : Read.ridx_main_v8 (ix2 r q) k = ix2 k q :=
  funext fun a => Fin.ext (by match a with | ⟨0, _⟩ => rfl | ⟨1, _⟩ => rfl)

/-- The bias row, spread over all rows, is read at the column alone. -/
theorem idxBias (r q : Fin 4096) : Read.idx_main_v10 (Read.idx_main_v11 (ix2 r q)) = ix1 q :=
  funext fun a => Fin.ext (by match a with | ⟨0, _⟩ => rfl)

/-- The four column slices read the four gate blocks. -/
theorem idx13 (r : Fin 4096) (j : Fin 1024) : Read.idx_main_v13 (ix2 r j) = ix2 r (Cert.Lstm.col 0 j) :=
  funext fun a => Fin.ext (by
    match a with
    | ⟨0, _⟩ => rfl
    | ⟨1, _⟩ => show j.val = (Cert.Lstm.col 0 j).val; rw [Cert.Lstm.col_val]; show j.val = 0 * 1024 + j.val; omega)

theorem idx14 (r : Fin 4096) (j : Fin 1024) : Read.idx_main_v14 (ix2 r j) = ix2 r (Cert.Lstm.col 1 j) :=
  funext fun a => Fin.ext (by
    match a with
    | ⟨0, _⟩ => rfl
    | ⟨1, _⟩ => show 1024 + j.val = (Cert.Lstm.col 1 j).val; rw [Cert.Lstm.col_val]; show 1024 + j.val = 1 * 1024 + j.val; omega)

theorem idx15 (r : Fin 4096) (j : Fin 1024) : Read.idx_main_v15 (ix2 r j) = ix2 r (Cert.Lstm.col 2 j) :=
  funext fun a => Fin.ext (by
    match a with
    | ⟨0, _⟩ => rfl
    | ⟨1, _⟩ => show 2048 + j.val = (Cert.Lstm.col 2 j).val; rw [Cert.Lstm.col_val]; show 2048 + j.val = 2 * 1024 + j.val; omega)

theorem idx16 (r : Fin 4096) (j : Fin 1024) : Read.idx_main_v16 (ix2 r j) = ix2 r (Cert.Lstm.col 3 j) :=
  funext fun a => Fin.ext (by
    match a with
    | ⟨0, _⟩ => rfl
    | ⟨1, _⟩ => show 3072 + j.val = (Cert.Lstm.col 3 j).val; rw [Cert.Lstm.col_val]; show 3072 + j.val = 3 * 1024 + j.val; omega)

/-! ## The stages -/

section
variable (x0 x1 x2 : (⟨S4096x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S1024x1024, .f32⟩ : BufTy).Contents (Elt Ideal)) (x18 : (⟨S1024, .f32⟩ : BufTy).Contents (Elt Ideal))

/-- The pre-activation array at row `r`, column `q` is the specification's gate: the two products, added, plus the
    bias entry of column `q`. -/
theorem gates_apply (r q : Fin 4096) :
    Read.val_main_v12 (F := Ideal) x0 x1 x3 x4 x5 x6 x7 x8 x9 x10 x11 x12 x13 x14 x15 x16 x17 x18 (ix2 r q)
      = Cert.Lstm.gate (R := 4096) x0 x1 (Read.val_main_v0 (F := Ideal) x3 x5 x7 x9) (Read.val_main_v1 (F := Ideal) x11 x13 x15 x17)
          (fun q => Read.val_main_v6 (F := Ideal) x4 x6 x8 x10 x12 x14 x16 x18 (ix1 q)) r q := by
  rw [Read.val_main_v12_apply, Read.val_main_v9_apply, Read.val_main_v7_apply, Read.val_main_v8_apply,
    Read.val_main_v11_apply, Read.val_main_v10_apply, idxBias]
  simp only [lidx7, ridx7, lidx8, ridx8]
  rfl

/-- The input gate: the logistic function, spelt out as 1 / (1 + e^(−z)), of the first gate block. -/
theorem input_apply (r : Fin 4096) (j : Fin 1024) :
    Read.val_main_v22 (F := Ideal) x0 x1 x3 x4 x5 x6 x7 x8 x9 x10 x11 x12 x13 x14 x15 x16 x17 x18 (ix2 r j)
      = Ideal.logistic (Cert.Lstm.gate (R := 4096) x0 x1 (Read.val_main_v0 (F := Ideal) x3 x5 x7 x9) (Read.val_main_v1 (F := Ideal) x11 x13 x15 x17)
          (fun q => Read.val_main_v6 (F := Ideal) x4 x6 x8 x10 x12 x14 x16 x18 (ix1 q)) r (Cert.Lstm.col 0 j)) := by
  rw [Read.val_main_v22_apply, Read.val_main_v21_apply, Read.val_main_cst_0_apply, Read.val_main_v20_apply,
    Read.val_main_v19_apply, Read.val_main_cst_apply, Read.val_main_v18_apply, Read.val_main_v17_apply,
    Read.val_main_v13_apply, idx13, gates_apply]
  simp only [Ideal.hostDivf_def, Ideal.ofBits_def, Ideal.addf_def, Ideal.hostUnary_exp_def, Ideal.hostNegf_def, Ideal.negf_def]
  exact Cert.Lstm.logistic_spelt _

/-- The forget gate: the same of the second gate block. -/
theorem forget_apply (r : Fin 4096) (j : Fin 1024) :
    Read.val_main_v28 (F := Ideal) x0 x1 x3 x4 x5 x6 x7 x8 x9 x10 x11 x12 x13 x14 x15 x16 x17 x18 (ix2 r j)
      = Ideal.logistic (Cert.Lstm.gate (R := 4096) x0 x1 (Read.val_main_v0 (F := Ideal) x3 x5 x7 x9) (Read.val_main_v1 (F := Ideal) x11 x13 x15 x17)
          (fun q => Read.val_main_v6 (F := Ideal) x4 x6 x8 x10 x12 x14 x16 x18 (ix1 q)) r (Cert.Lstm.col 1 j)) := by
  rw [Read.val_main_v28_apply, Read.val_main_v27_apply, Read.val_main_cst_2_apply, Read.val_main_v26_apply,
    Read.val_main_v25_apply, Read.val_main_cst_1_apply, Read.val_main_v24_apply, Read.val_main_v23_apply,
    Read.val_main_v14_apply, idx14, gates_apply]
  simp only [Ideal.hostDivf_def, Ideal.ofBits_def, Ideal.addf_def, Ideal.hostUnary_exp_def, Ideal.hostNegf_def, Ideal.negf_def]
  exact Cert.Lstm.logistic_spelt _

/-- The candidate: the hyperbolic tangent of the third gate block. -/
theorem candidate_apply (r : Fin 4096) (j : Fin 1024) :
    Read.val_main_v29 (F := Ideal) x0 x1 x3 x4 x5 x6 x7 x8 x9 x10 x11 x12 x13 x14 x15 x16 x17 x18 (ix2 r j)
      = Ideal.tanh (Cert.Lstm.gate (R := 4096) x0 x1 (Read.val_main_v0 (F := Ideal) x3 x5 x7 x9) (Read.val_main_v1 (F := Ideal) x11 x13 x15 x17)
          (fun q => Read.val_main_v6 (F := Ideal) x4 x6 x8 x10 x12 x14 x16 x18 (ix1 q)) r (Cert.Lstm.col 2 j)) := by
  rw [Read.val_main_v29_apply, Read.val_main_v15_apply, idx15, gates_apply]
  rfl

/-- The output gate: the logistic function of the fourth gate block. -/
theorem output_apply (r : Fin 4096) (j : Fin 1024) :
    Read.val_main_v35 (F := Ideal) x0 x1 x3 x4 x5 x6 x7 x8 x9 x10 x11 x12 x13 x14 x15 x16 x17 x18 (ix2 r j)
      = Ideal.logistic (Cert.Lstm.gate (R := 4096) x0 x1 (Read.val_main_v0 (F := Ideal) x3 x5 x7 x9) (Read.val_main_v1 (F := Ideal) x11 x13 x15 x17)
          (fun q => Read.val_main_v6 (F := Ideal) x4 x6 x8 x10 x12 x14 x16 x18 (ix1 q)) r (Cert.Lstm.col 3 j)) := by
  rw [Read.val_main_v35_apply, Read.val_main_v34_apply, Read.val_main_cst_4_apply, Read.val_main_v33_apply,
    Read.val_main_v32_apply, Read.val_main_cst_3_apply, Read.val_main_v31_apply, Read.val_main_v30_apply,
    Read.val_main_v16_apply, idx16, gates_apply]
  simp only [Ideal.hostDivf_def, Ideal.ofBits_def, Ideal.addf_def, Ideal.hostUnary_exp_def, Ideal.hostNegf_def, Ideal.negf_def]
  exact Cert.Lstm.logistic_spelt _

/-! ## The two results -/

/-- The first result at row `r`, column `j`: forget gate times the old cell state plus input gate times the candidate. -/
theorem cell_apply (r : Fin 4096) (j : Fin 1024) :
    Read.val_main_v38 (F := Ideal) x0 x1 x2 x3 x4 x5 x6 x7 x8 x9 x10 x11 x12 x13 x14 x15 x16 x17 x18 (ix2 r j)
      = Cert.Lstm.cellAt (R := 4096) x0 x1 x2 (Read.val_main_v0 (F := Ideal) x3 x5 x7 x9) (Read.val_main_v1 (F := Ideal) x11 x13 x15 x17)
          (fun q => Read.val_main_v6 (F := Ideal) x4 x6 x8 x10 x12 x14 x16 x18 (ix1 q)) r j := by
  rw [Read.val_main_v38_apply, Read.val_main_v36_apply, Read.val_main_v37_apply, forget_apply, input_apply, candidate_apply]
  rfl

/-- The first result is the new cell state. -/
theorem cell_eq :
    Read.val_main_v38 (F := Ideal) x0 x1 x2 x3 x4 x5 x6 x7 x8 x9 x10 x11 x12 x13 x14 x15 x16 x17 x18
      = Cert.Lstm.cell (R := 4096) x0 x1 x2 (Read.val_main_v0 (F := Ideal) x3 x5 x7 x9) (Read.val_main_v1 (F := Ideal) x11 x13 x15 x17)
          (fun q => Read.val_main_v6 (F := Ideal) x4 x6 x8 x10 x12 x14 x16 x18 (ix1 q)) := by
  funext i
  obtain ⟨r, j, rfl⟩ : ∃ (r : Fin 4096) (j : Fin 1024), i = ix2 r j := ⟨i 0, i 1, eq_ix2 i⟩
  rw [Cert.Lstm.cell_ix2]
  exact cell_apply x0 x1 x2 x3 x4 x5 x6 x7 x8 x9 x10 x11 x12 x13 x14 x15 x16 x17 x18 r j

/-- The second result is the new hidden state: the output gate times the first result. -/
theorem hidden_eq :
    Read.val_main_v39 (F := Ideal) x0 x1 x2 x3 x4 x5 x6 x7 x8 x9 x10 x11 x12 x13 x14 x15 x16 x17 x18
      = Cert.Lstm.hidden (R := 4096) x0 x1 x2 (Read.val_main_v0 (F := Ideal) x3 x5 x7 x9) (Read.val_main_v1 (F := Ideal) x11 x13 x15 x17)
          (fun q => Read.val_main_v6 (F := Ideal) x4 x6 x8 x10 x12 x14 x16 x18 (ix1 q)) := by
  funext i
  obtain ⟨r, j, rfl⟩ : ∃ (r : Fin 4096) (j : Fin 1024), i = ix2 r j := ⟨i 0, i 1, eq_ix2 i⟩
  rw [Cert.Lstm.hidden_ix2, Read.val_main_v39_apply, output_apply, cell_apply]
  rfl

end

end Cert.ReferenceIdeal.RefCell

end
-- ==== Proof.lean ====
/-
  The certificate of the fused LSTM-cell kernel against its reference.

  The kernel builds, on the host, two wide weight matrices (four [1024,1024] blocks side by side, converted to bf16)
  and one bias row (four pairwise sums end to end), then runs one pipelined region of sixteen points; point t takes rows
  256·t … 256·t+255 of x, h0 and c0 and stores those rows of the new hidden state h1 and of the new cell state c1:
    gates = x·Wi + h0·Wh + b,  c1 = σ(gates₁)·c0 + σ(gates₀)·tanh(gates₂),  h1 = σ(gates₃)·c1,
  gatesₖ the k-th range of 1024 columns. The reference computes the same from whole arrays, with σ spelt 1/(1 + e^(−z)).

  • The three frames: each program runs to the end, faults nowhere and leaves its nineteen argument arrays unchanged —
    the kernel's at either float instance by its run (Proof/BitsRun.lean, Proof/IdealRun.lean), the reference's by its
    generated run.
  • The idealized kernel is the kernel's own text read over the extended reals: the ideal pass rewrote nothing.
  • Over the extended reals both programs end with the same two arrays: the kernel's results are the specification's
    cell of the argument arrays (Proof/IdealValue.lean, over Proof/BlockCell.lean: a block of rows of the cell is the cell
    of the block), and so are the reference's (Proof/RefCell.lean). A change of float format is the identity there, a
    matrix product into a zero accumulator is the plain sum, the two sigmoids are one function, and both programs add and
    multiply in the same order, so no finiteness of the inputs is used.
-/
import proofs.«106889_j38414187495767_1_alg».proof.Defs
import proofs.«106889_j38414187495767_1_alg».proof.Proof.Gen.Kernel
import proofs.«106889_j38414187495767_1_alg».proof.Proof.Gen.KernelIdeal
import proofs.«106889_j38414187495767_1_alg».proof.Proof.Gen.ReferenceIdeal
import proofs.«106889_j38414187495767_1_alg».proof.Proof.Gen.Pre_finite_inputs
import proofs.«106889_j38414187495767_1_alg».proof.Proof.Gen.ReferenceIdeal.Read
import proofs.«106889_j38414187495767_1_alg».proof.Proof.BitsRun
import proofs.«106889_j38414187495767_1_alg».proof.Proof.IdealRun
import proofs.«106889_j38414187495767_1_alg».proof.Proof.IdealValue
import proofs.«106889_j38414187495767_1_alg».proof.Proof.RefCell
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.CellRun.frame m ρ

/-- So does its reading over the extended reals. -/
theorem frame_ideal : Cert.frame_KernelIdeal := fun m ρ _ => Cert.KernelIdeal.CellRun.frame m ρ

/-- The reference is host operations only: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- Over the extended reals, from memories agreeing on the arguments, both programs end with the new hidden state and
    the new cell state of the specification's cell of those arguments. -/
theorem algebraic : Cert.algebraic_KernelIdeal_ReferenceIdeal := by
  intro m ρ m' ρ' _ hagree
  refine ⟨fun c => Cert.KernelIdeal.CellValue.hiddenAll m c, fun c => Cert.KernelIdeal.CellValue.cellAll m c,
    Cert.KernelIdeal.CellValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15, h16, h17, h18⟩ := hagree c
    rw [Cert.ReferenceIdeal.Read.val_main_v39_eq, Cert.ReferenceIdeal.RefCell.hidden_eq,
      h0, h1, h2, h3, h4, h5, h6, h7, h8, h9, h10, h11, h12, h13, h14, h15, h16, h17, h18]
    rfl
  · obtain ⟨h0, h1, h2, h3, h4, h5, h6, h7, h8, h9, h10, h11, h12, h13, h14, h15, h16, h17, h18⟩ := hagree c
    rw [Cert.ReferenceIdeal.Read.val_main_v38_eq, Cert.ReferenceIdeal.RefCell.cell_eq,
      h0, h1, h2, h3, h4, h5, h6, h7, h8, h9, h10, h11, h12, h13, h14, h15, h16, h17, h18]
    rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
